-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x128 : S_.BroadcastsInDim S50000x128 (![] : Fin 0 → Fin S50000x128.rank)
  reducesTo_S50000x128_S_d0_1 : S50000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S800000 32) (main_arg2 : IVec S800000 32) (main_arg3 : FVec F S800000 .f32) (main_arg4 : FVec F S50000x128 .f32) (main_arg5 : FVec F S512x128 .f32) (main_arg6 : FVec F S128 .f32) (main_arg7 : FVec F S128x64 .f32) (main_arg8 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_arg7 main_arg8 main_v13 main_v16
-- ==== Kernel.lean ====
abbrev S50000x512 : Shape := ⟨2, ![50000, 512]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S2000x512 : Shape := ⟨2, ![2000, 512]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 47
  | .vmem => 13
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x128, .f32⟩
  | .hbm, ⟨5, _⟩ => ⟨S512x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x64, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S128x64, .f32⟩
  | .local _ .vmem, ⟨11, _⟩ => ⟨S2000x64, .f32⟩
  | .local _ .vmem, ⟨12, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  natLt_1_32 : 1 < 32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x128, .f32⟩
  | .hbm, ⟨5, _⟩ => ⟨S512x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .i1⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x64, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result named.

  @main is four segments: the first projection's region, a stretch of host operations, the fused region, a
  second stretch. The contents of every buffer at each boundary are a fold from the launch memory
  (`Gen.W0` … `Gen.W4`). Here the run is stated with the result buffer read at the last boundary's contents
  `Gen.W4`, beside the unchanged arguments: every weakly fair execution terminates without a fault in such a state.
-/
import proofs.«120734_j58471684768394_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Hand

end
-- ==== Proof.Region0.lean ====
/-
  The first projection's region, read as one array.

  The region's grid has 25 points; point t stages rows 2000·t … 2000·t + 1999 of x and the whole of W1, and writes
  back rows 2000·t … 2000·t + 1999 of the product. A row of a block's product is the sum over the 512 contracted
  positions of that row of x times that column of W1, so every write-back is its block of ONE array: entry (r, n)
  is ∑ k, x (r, k) · W1 (k, n). The 25 blocks tile the 50000 rows, so after the region the array is that product,
  whatever the buffers held when the region was entered.
-/
import proofs.«120734_j58471684768394_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-! ## A block's product at an index -/

/-- Position (row of j, k) of a block of x. -/
abbrev xBlkAt (j : S2000x128.Idx) (k : Fin 512) : S2000x512.Idx := fun a => match a with
  | ⟨0, _⟩ => ⟨(j 0).val, (j 0).isLt⟩
  | ⟨1, _⟩ => ⟨k.val, k.isLt⟩
/-- Position (k, column of j) of W1. -/
abbrev w1BlkAt (j : S2000x128.Idx) (k : Fin 512) : S512x128.Idx := fun a => match a with
  | ⟨0, _⟩ => ⟨k.val, k.isLt⟩
  | ⟨1, _⟩ => ⟨(j 1).val, (j 1).isLt⟩

theorem dot0_lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem dot0_lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem dot0_rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem dot0_rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The body's stored value at an index: the row of the x block times the column of W1, summed over the 512
    contracted positions (the change of float format on the way into the product is the identity here). -/
theorem proj1_block_apply (x0 : Vec Ideal S2000x512 .f32) (x1 : Vec Ideal S512x128 .f32) (j : S2000x128.Idx) :
    k0_pay1 (F := Ideal) x0 x1 j = ∑ k : Fin 512, x0 (xBlkAt j k) * x1 (w1BlkAt j k) := by
  unfold k0_pay1
  refine (Ideal.matmul_constant_zero_apply dot_S2000x512_S512x128_S2000x128_1_0_0_1_n_n none _ _ j).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = xBlkAt j k := funext fun a => Fin.ext (by
    match a with
    | ⟨0, _⟩ => exact dot0_lhs_0 _ _
    | ⟨1, _⟩ => exact (dot0_lhs_1 _ _).trans hk)
  have er : dot_S2000x512_S512x128_S2000x128_1_0_0_1_n_n.rhsIdx j ((ValueIdx.contrEquiv1 dot_S2000x512_S512x128_S2000x128_1_0_0_1_n_n 512 rfl rfl).symm k) = w1BlkAt j k := funext fun a => Fin.ext (by
    match a with
    | ⟨0, _⟩ => exact (dot0_rhs_0 _ _).trans hk
    | ⟨1, _⟩ => exact dot0_rhs_1 _ _)
  rw [el, er]
  rfl

/-! ## The whole array -/

/-- Position (row of i, k) of x. -/
abbrev xAt (i : S50000x128.Idx) (k : Fin 512) : S50000x512.Idx := fun a => match a with
  | ⟨0, _⟩ => ⟨(i 0).val, (i 0).isLt⟩
  | ⟨1, _⟩ => ⟨k.val, k.isLt⟩
/-- Position (k, column of i) of W1. -/
abbrev w1At (i : S50000x128.Idx) (k : Fin 512) : S512x128.Idx := fun a => match a with
  | ⟨0, _⟩ => ⟨k.val, k.isLt⟩
  | ⟨1, _⟩ => ⟨(i 1).val, (i 1).isLt⟩

/-- The product x · W1, entry by entry. -/
def proj1 (x : S50000x512.Idx → EReal) (w : S512x128.Idx → EReal) : S50000x128.Idx → EReal :=
  fun i => ∑ k : Fin 512, x (xAt i k) * w (w1At i k)

/-- The index maps over the grid: x's block and the output's block move together along the rows, W1 stays. -/
theorem idx_facts_r0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem idx_onto_r0 : ∀ q0 : Fin 25, ∃ t : Fin cfg0.N, win0_2.index t = ![q0.val, 0] :=
  (by decide +kernel : ∀ q0 : Fin 25, ∃ t : Fin grid0.N, win0_2.index t = ![q0.val, 0])

/-- At a point t and a position j of the output block, the block sum over x's block and W1 is the whole-array
    product at j's place in the array: x's block sits at the output block's rows, W1 is whole. -/
theorem block_sum_r0 (A : S50000x512.Idx → EReal) (B : S512x128.Idx → EReal) (t : Fin cfg0.N) (j : S2000x128.Idx) :
    ∑ k : Fin 512, A (((cfg0.win 0).blk t).view.emb (xBlkAt j k)) * B (((cfg0.win 1).blk t).view.emb (w1BlkAt j k))
      = proj1 A B (((cfg0.win 2).blk t).view.emb j) := by
  obtain ⟨e0, e1, e2, e3, e4, e5⟩ := idx_facts_r0 t
  unfold proj1
  refine Finset.sum_congr rfl fun k _ => ?_
  have h0 : ((cfg0.win 0).blk t).view.emb (xBlkAt j k) = xAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (w1BlkAt j k) = w1At (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]

variable (V : (c : Dev nD) → (b : Ref sig .tc) → Buf (Elt Ideal) ((c : Thread nD τ).loc b))

/-- What point t writes back is block t of the product of the arrays as the region finds them. -/
theorem flushed_r0 (c : Dev nD) (t : Fin cfg0.N) :
    (dat0 (F := Ideal) V c).flushed 2 t = ((cfg0.win 2).blk t).view.read (Elt Ideal) (proj1 (V c main_arg0) (V c main_arg5)) := by
  show (cfg0.win 2).cut (grid0.coords t) ((dat0 (F := Ideal) V c).after 2 t) = _
  rw [after0_2]
  unfold out0_2
  rw [View.canon_unit_zero zero_offsets]
  simp only [View.ld_unit_zero (S := S2000x512) zero_offsets, View.ld_unit_zero (S := S512x128) zero_offsets]
  funext j
  refine (proj1_block_apply _ _ j).trans ?_
  exact block_sum_r0 (V c main_arg0) (V c main_arg5) t j

/-- An index is in point t's block iff each coordinate is in the block's range on its axis. -/
theorem mem_blk_r0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the array is in some point's block: row r is in block r / 2000. -/
theorem cover_r0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto_r0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk_r0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array is the product of x and W1 as the region found them. -/
theorem final_r0 (c : Dev nD) : (dat0 (F := Ideal) V c).arrAt 2 cfg0.N = proj1 (V c main_arg0) (V c main_arg5) :=
  (dat0 (F := Ideal) V c).arrAt_eq_of_cover 2 (proj1 (V c main_arg0) (V c main_arg5)) (fun t _ => flushed_r0 V c t) cover_r0

end Cert.KernelIdeal.Hand

end
-- ==== Proof.Region1.lean ====
/-
  The fused region, read as one array.

  Point t stages rows 2000·t … 2000·t + 1999 of the aggregated features h and of the dropout noise u, the one-row
  bias b and the whole of W2. The body adds the bias to every row, takes the maximum with 0, multiplies by the keep
  mask (1 where u ≥ 1/2, else 0) and by 2, and multiplies the result by W2. The activation at (r, n) depends only on
  h (r, n), u (r, n) and b (0, n), and a row of the product only on that row of the activation, so every write-back is
  its block of ONE array: entry (r, o) is ∑ n, act (r, n) · W2 (n, o). The 25 blocks tile the 50000 rows.
-/
import proofs.«120734_j58471684768394_1_alg».proof.Proof.Gen.KernelIdeal.Frame
import proofs.«120734_j58471684768394_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The activation -/

/-- Bias, maximum with 0, keep mask, scale by 2 — at one position of an array of R rows and 128 columns; the bias is
    one row. The mask is the comparison's bit widened with zeros to 32 bits and read as a signed integer. -/
def act {R : Nat} (h u : (⟨2, ![R, 128]⟩ : Shape).Idx → EReal) (b : (⟨2, ![1, 128]⟩ : Shape).Idx → EReal) :
    (⟨2, ![R, 128]⟩ : Shape).Idx → EReal :=
  fun i => (max (h i + b (ix2 (0 : Fin 1) (⟨(i 1).val, (i 1).isLt⟩ : Fin 128))) (Ideal.ofBits .f32 0x00000000#32)
      * ((((Ideal.cmp .oge (u i) (Ideal.ofBits .f32 0x3F000000#32)).setWidth 32).toInt : ℝ) : EReal))
    * Ideal.ofBits .f32 0x40000000#32

/-- The body's activation, as printed, is `act` of its three loaded blocks (the casts to the same shape are the
    identity; the one bias row is read at the position's column). -/
theorem act_block (v0 v8 : FVec Ideal S2000x128 .f32) (v2 : FVec Ideal S1x128 .f32) :
    mulf (mulf (maximumf (addf (shapeCast S2000x128 v0 shapeCasts_S2000x128_S2000x128)
        (broadcastTo S2000x128 (shapeCast S1x128 v2 shapeCasts_S1x128_S1x128) broadcasts_S1x128_S2000x128))
        (broadcast S2000x128 (Scalar.ofBits (F := Ideal) .f32 0x00000000#32)))
      (sitofp .f32 (extui 32 (cmpf .oge v8 (broadcast S2000x128 (Scalar.ofBits (F := Ideal) .f32 0x3F000000#32))) natLt_1_32)))
      (broadcast S2000x128 (Scalar.ofBits (F := Ideal) .f32 0x40000000#32))
    = act v0 v8 v2 := by
  rw [shapeCast_self, shapeCast_self]
  funext q
  obtain ⟨p, r, rfl⟩ : ∃ (p : Fin 2000) (r : Fin 128), q = ix2 p r := ⟨q 0, q 1, eq_ix2 q⟩
  show (max (v0 (ix2 p r) + broadcastTo (⟨2, ![2000, 128]⟩ : Shape) v2 broadcasts_S1x128_S2000x128 (ix2 p r)) _ * _) * _ = _
  rw [broadcastTo_1b_ab_apply]
  rfl

/-! ## A block's product at an index -/

abbrev actBlkAt (j : S2000x64.Idx) (k : Fin 128) : S2000x128.Idx := fun a => match a with
  | ⟨0, _⟩ => ⟨(j 0).val, (j 0).isLt⟩
  | ⟨1, _⟩ => ⟨k.val, k.isLt⟩
abbrev w2BlkAt (j : S2000x64.Idx) (k : Fin 128) : S128x64.Idx := fun a => match a with
  | ⟨0, _⟩ => ⟨k.val, k.isLt⟩
  | ⟨1, _⟩ => ⟨(j 1).val, (j 1).isLt⟩

theorem dot1_lhs_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot1_lhs_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem dot1_rhs_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem dot1_rhs_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value at an index: the row of the block's activation times the column of W2, summed over the
    128 contracted positions. -/
theorem proj2_block_apply (v0 : Vec Ideal S2000x128 .f32) (v2 : Vec Ideal S1x128 .f32) (v8 : Vec Ideal S2000x128 .f32)
    (v17 : Vec Ideal S128x64 .f32) (j : S2000x64.Idx) :
    k1_pay1 (F := Ideal) v0 v2 v8 v17 j = ∑ k : Fin 128, act v0 v8 v2 (actBlkAt j k) * v17 (w2BlkAt j k) := by
  unfold k1_pay1
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = actBlkAt j k := funext fun a => Fin.ext (by
    match a with
    | ⟨0, _⟩ => exact dot1_lhs_0 _ _
    | ⟨1, _⟩ => exact (dot1_lhs_1 _ _).trans hk)
  have er : dot_S2000x128_S128x64_S2000x64_1_0_0_1_n_n.rhsIdx j ((ValueIdx.contrEquiv1 dot_S2000x128_S128x64_S2000x64_1_0_0_1_n_n 128 rfl rfl).symm k) = w2BlkAt j k := funext fun a => Fin.ext (by
    match a with
    | ⟨0, _⟩ => exact (dot1_rhs_0 _ _).trans hk
    | ⟨1, _⟩ => exact dot1_rhs_1 _ _)
  rw [el, er]
  exact congrArg (· * v17 (w2BlkAt j k)) (congrFun (act_block v0 v8 v2) (actBlkAt j k))

/-! ## The whole array -/

abbrev actAt (i : S50000x64.Idx) (k : Fin 128) : S50000x128.Idx := fun a => match a with
  | ⟨0, _⟩ => ⟨(i 0).val, (i 0).isLt⟩
  | ⟨1, _⟩ => ⟨k.val, k.isLt⟩
abbrev w2At (i : S50000x64.Idx) (k : Fin 128) : S128x64.Idx := fun a => match a with
  | ⟨0, _⟩ => ⟨k.val, k.isLt⟩
  | ⟨1, _⟩ => ⟨(i 1).val, (i 1).isLt⟩

/-- The product a · W2, entry by entry. -/
def proj2 (a : S50000x128.Idx → EReal) (w : S128x64.Idx → EReal) : S50000x64.Idx → EReal :=
  fun i => ∑ k : Fin 128, a (actAt i k) * w (w2At i k)

/-- The index maps over the grid: h's, u's and the output's blocks move together along the rows; the bias and W2 stay. -/
theorem idx_facts_r1 : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every row block is some point's. -/
theorem idx_onto_r1 : ∀ q0 : Fin 25, ∃ t : Fin cfg1.N, win1_4.index t = ![q0.val, 0] :=
  (by decide +kernel : ∀ q0 : Fin 25, ∃ t : Fin grid1.N, win1_4.index t = ![q0.val, 0])

/-- At a point t and a position j of the output block, the block sum over the blocks' activation and W2 is the
    whole-array function at j's place in the array. -/
theorem block_sum_r1 (H U : S50000x128.Idx → EReal) (Bv : S1x128.Idx → EReal) (Wt : S128x64.Idx → EReal)
    (t : Fin cfg1.N) (j : S2000x64.Idx) :
    ∑ k : Fin 128, act (fun y : S2000x128.Idx => H (((cfg1.win 0).blk t).view.emb y)) (fun y : S2000x128.Idx => U (((cfg1.win 2).blk t).view.emb y))
          (fun y : S1x128.Idx => Bv (((cfg1.win 1).blk t).view.emb y)) (actBlkAt j k)
        * Wt (((cfg1.win 3).blk t).view.emb (w2BlkAt j k))
      = proj2 (act H U Bv) Wt (((cfg1.win 4).blk t).view.emb j) := by
  obtain ⟨e0, e1, e2, e3, e4, e5, e6, e7, e8⟩ := idx_facts_r1 t
  unfold proj2
  refine Finset.sum_congr rfl fun k _ => ?_
  have h0 : ((cfg1.win 0).blk t).view.emb (actBlkAt j k) = actAt (((cfg1.win 4).blk t).view.emb j) k := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  have h2 : ((cfg1.win 2).blk t).view.emb (actBlkAt j k) = actAt (((cfg1.win 4).blk t).view.emb j) k := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 128 + 1 * k.val = k.val; omega
  have h1 : ((cfg1.win 1).blk t).view.emb (ix2 (0 : Fin 1) (⟨k.val, k.isLt⟩ : Fin 128)) = ix2 (0 : Fin 1) (⟨k.val, k.isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h3 : ((cfg1.win 3).blk t).view.emb (w2BlkAt j k) = w2At (((cfg1.win 4).blk t).view.emb j) k := by
    funext a; apply Fin.ext
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega
  show (max (H (((cfg1.win 0).blk t).view.emb (actBlkAt j k)) + Bv (((cfg1.win 1).blk t).view.emb (ix2 (0 : Fin 1) (⟨k.val, k.isLt⟩ : Fin 128)))) _
        * ((((Ideal.cmp .oge (U (((cfg1.win 2).blk t).view.emb (actBlkAt j k))) _).setWidth 32).toInt : ℝ) : EReal)) * _
      * Wt (((cfg1.win 3).blk t).view.emb (w2BlkAt j k)) = _
  rw [h0, h1, h2, h3]
  rfl

variable (V : (c : Dev nD) → (b : Ref sig .tc) → Buf (Elt Ideal) ((c : Thread nD τ).loc b))

/-- What point t writes back is block t of the activation's product with W2, of the arrays as the region finds them. -/
theorem flushed_r1 (c : Dev nD) (t : Fin cfg1.N) :
    (dat1 (F := Ideal) V c).flushed 4 t
      = ((cfg1.win 4).blk t).view.read (Elt Ideal) (proj2 (act (V c main_v13) (V c main_arg4) (V c main_v14)) (V c main_arg7)) := by
  show (cfg1.win 4).cut (grid1.coords t) ((dat1 (F := Ideal) V c).after 4 t) = _
  rw [after1_4]
  unfold out1_4
  rw [View.canon_unit_zero zero_offsets]
  simp only [View.ld_unit_zero (S := S2000x128) zero_offsets, View.ld_unit_zero (S := S1x128) zero_offsets, View.ld_unit_zero (S := S128x64) zero_offsets]
  funext j
  refine (proj2_block_apply _ _ _ _ j).trans ?_
  exact block_sum_r1 (V c main_v13) (V c main_arg4) (V c main_v14) (V c main_arg7) t j

/-- An index is in point t's block iff each coordinate is in the block's range on its axis. -/
theorem mem_blk_r1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v15).slice (win1_4.rect t)).set ↔ _
  rw [View.set_slice_whole, Rect.mem_set_unit]
  exact Iff.rfl

/-- Every index of the array is in some point's block: row r is in block r / 2000. -/
theorem cover_r1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto_r1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk_r1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- After the region the output array is the activation's product with W2, of the arrays as the region found them. -/
theorem final_r1 (c : Dev nD) :
    (dat1 (F := Ideal) V c).arrAt 4 cfg1.N = proj2 (act (V c main_v13) (V c main_arg4) (V c main_v14)) (V c main_arg7) :=
  (dat1 (F := Ideal) V c).arrAt_eq_of_cover 4 _ (fun t _ => flushed_r1 V c t) cover_r1

end Cert.KernelIdeal.Hand

end
-- ==== Proof.HostReads.lean ====
/-
  The idealized kernel's result as one term of its arguments.

  Between and after the two regions the program runs host operations: the sparse product (each edge gathers its source
  row, scales it by the edge's value, and the scaled rows are added into their destination rows), a reshape of the
  first bias to one row, and the final addition of the second bias. The sparse product is carried here as ONE
  function of (destinations, sources, values, dense rows) at each width and is never opened: both programs apply the
  very same operations. Reading each boundary's contents back through the fold gives the result buffer as
    spmm₆₄ (act (spmm₁₂₈ (x · W1)) · W2) + b2.
-/
import proofs.«120734_j58471684768394_1_alg».proof.Proof.Gen.KernelIdeal.Frame
import proofs.«120734_j58471684768394_1_alg».proof.Proof.KernelRun
import proofs.«120734_j58471684768394_1_alg».proof.Proof.Region0
import proofs.«120734_j58471684768394_1_alg».proof.Proof.Region1
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The sparse product, as the host spells it -/

/-- The sparse product at width 128: rows of `dense` gathered at the edges' sources (a negative source counted from
    the end), scaled by the edges' values, added into a zero array at the edges' destinations. -/
def spmm128 (row col : IVec S800000 32) (val : FVec Ideal S800000 .f32) (dense : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 val))
      (Host.gather gather_S50000x128_S800000x1_S800000x128_1_0_n_n_0_1_1128 dense
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The sparse product at width 64. -/
def spmm64 (row col : IVec S800000 32) (val : FVec Ideal S800000 .f32) (dense : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 row)
    (mulf (broadcastInDim S800000x64 ![0, 1] bcast_S800000x1_S800000x64_0_1 (broadcastInDim S800000x1 ![0] bcast_S800000_S800000x1_0 val))
      (Host.gather gather_S50000x64_S800000x1_S800000x64_1_0_n_n_0_1_164 dense
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

variable (m : (ℓ : Loc nD τ sig) → Buf (Elt Ideal) ℓ) (ρ : Dev nD → PrngReg)

/-! ## After the first region -/

theorem W1_v0 (c : Dev nD) : W1 m ρ c (Proc.devRef .tc main_v0) = proj1 (m ((c : Thread nD τ).loc main_arg0)) (m ((c : Thread nD τ).loc main_arg5)) :=
  (W1_arr m ρ c 2).trans (final_r0 (V0 m ρ) c)
theorem W1_arg1 (c : Dev nD) : W1 m ρ c (Proc.devRef .tc main_arg1) = (m ((c : Thread nD τ).loc main_arg1)) := W1_of_ne m ρ c main_arg1 (by decide)
theorem W1_arg2 (c : Dev nD) : W1 m ρ c (Proc.devRef .tc main_arg2) = (m ((c : Thread nD τ).loc main_arg2)) := W1_of_ne m ρ c main_arg2 (by decide)
theorem W1_arg3 (c : Dev nD) : W1 m ρ c (Proc.devRef .tc main_arg3) = (m ((c : Thread nD τ).loc main_arg3)) := W1_of_ne m ρ c main_arg3 (by decide)
theorem W1_arg4 (c : Dev nD) : W1 m ρ c (Proc.devRef .tc main_arg4) = (m ((c : Thread nD τ).loc main_arg4)) := W1_of_ne m ρ c main_arg4 (by decide)
theorem W1_arg6 (c : Dev nD) : W1 m ρ c (Proc.devRef .tc main_arg6) = (m ((c : Thread nD τ).loc main_arg6)) := W1_of_ne m ρ c main_arg6 (by decide)
theorem W1_arg7 (c : Dev nD) : W1 m ρ c (Proc.devRef .tc main_arg7) = (m ((c : Thread nD τ).loc main_arg7)) := W1_of_ne m ρ c main_arg7 (by decide)
theorem W1_arg8 (c : Dev nD) : W1 m ρ c (Proc.devRef .tc main_arg8) = (m ((c : Thread nD τ).loc main_arg8)) := W1_of_ne m ρ c main_arg8 (by decide)

/-! ## After the first stretch of host operations -/

/-- The aggregated features the fused region is entered with: the sparse product of x · W1. -/
theorem W2_v13 (c : Dev nD) : W2 m ρ c (Proc.devRef .tc main_v13) = spmm128 (m ((c : Thread nD τ).loc main_arg1)) (m ((c : Thread nD τ).loc main_arg2)) (m ((c : Thread nD τ).loc main_arg3)) (proj1 (m ((c : Thread nD τ).loc main_arg0)) (m ((c : Thread nD τ).loc main_arg5))) := by
  show StableHlo.after hostOps1 (W1 m ρ c) (Proc.devRef .tc main_v13) = _
  after_results
  rw [W1_v0 m ρ c, W1_arg1 m ρ c, W1_arg2 m ρ c, W1_arg3 m ρ c]
  rfl

/-- The first bias as one row. -/
theorem W2_v14 (c : Dev nD) : W2 m ρ c (Proc.devRef .tc main_v14) = shapeCast S1x128 (m ((c : Thread nD τ).loc main_arg6)) shapeCasts_S128_S1x128 := by
  show StableHlo.after hostOps1 (W1 m ρ c) (Proc.devRef .tc main_v14) = _
  after_results
  rw [W1_arg6 m ρ c]
  rfl
theorem W2_arg1 (c : Dev nD) : W2 m ρ c (Proc.devRef .tc main_arg1) = (m ((c : Thread nD τ).loc main_arg1)) := by
  show StableHlo.after hostOps1 (W1 m ρ c) (Proc.devRef .tc main_arg1) = _
  after_results
  exact W1_arg1 m ρ c
theorem W2_arg2 (c : Dev nD) : W2 m ρ c (Proc.devRef .tc main_arg2) = (m ((c : Thread nD τ).loc main_arg2)) := by
  show StableHlo.after hostOps1 (W1 m ρ c) (Proc.devRef .tc main_arg2) = _
  after_results
  exact W1_arg2 m ρ c
theorem W2_arg3 (c : Dev nD) : W2 m ρ c (Proc.devRef .tc main_arg3) = (m ((c : Thread nD τ).loc main_arg3)) := by
  show StableHlo.after hostOps1 (W1 m ρ c) (Proc.devRef .tc main_arg3) = _
  after_results
  exact W1_arg3 m ρ c
theorem W2_arg4 (c : Dev nD) : W2 m ρ c (Proc.devRef .tc main_arg4) = (m ((c : Thread nD τ).loc main_arg4)) := by
  show StableHlo.after hostOps1 (W1 m ρ c) (Proc.devRef .tc main_arg4) = _
  after_results
  exact W1_arg4 m ρ c
theorem W2_arg7 (c : Dev nD) : W2 m ρ c (Proc.devRef .tc main_arg7) = (m ((c : Thread nD τ).loc main_arg7)) := by
  show StableHlo.after hostOps1 (W1 m ρ c) (Proc.devRef .tc main_arg7) = _
  after_results
  exact W1_arg7 m ρ c
theorem W2_arg8 (c : Dev nD) : W2 m ρ c (Proc.devRef .tc main_arg8) = (m ((c : Thread nD τ).loc main_arg8)) := by
  show StableHlo.after hostOps1 (W1 m ρ c) (Proc.devRef .tc main_arg8) = _
  after_results
  exact W1_arg8 m ρ c

/-! ## After the fused region -/

/-- The second projection's array: the activation of the aggregated features times W2. -/
theorem W3_v15 (c : Dev nD) : W3 m ρ c (Proc.devRef .tc main_v15)
    = proj2 (act (spmm128 (m ((c : Thread nD τ).loc main_arg1)) (m ((c : Thread nD τ).loc main_arg2)) (m ((c : Thread nD τ).loc main_arg3)) (proj1 (m ((c : Thread nD τ).loc main_arg0)) (m ((c : Thread nD τ).loc main_arg5)))) (m ((c : Thread nD τ).loc main_arg4)) (shapeCast S1x128 (m ((c : Thread nD τ).loc main_arg6)) shapeCasts_S128_S1x128)) (m ((c : Thread nD τ).loc main_arg7)) := by
  refine ((W3_arr m ρ c 4).trans (final_r1 (V2 m ρ) c)).trans ?_
  show proj2 (act (W2 m ρ c (Proc.devRef .tc main_v13)) (W2 m ρ c (Proc.devRef .tc main_arg4)) (W2 m ρ c (Proc.devRef .tc main_v14))) (W2 m ρ c (Proc.devRef .tc main_arg7)) = _
  rw [W2_v13 m ρ c, W2_v14 m ρ c, W2_arg4 m ρ c, W2_arg7 m ρ c]
theorem W3_arg1 (c : Dev nD) : W3 m ρ c (Proc.devRef .tc main_arg1) = (m ((c : Thread nD τ).loc main_arg1)) :=
  (W3_of_ne m ρ c main_arg1 (by decide)).trans (W2_arg1 m ρ c)
theorem W3_arg2 (c : Dev nD) : W3 m ρ c (Proc.devRef .tc main_arg2) = (m ((c : Thread nD τ).loc main_arg2)) :=
  (W3_of_ne m ρ c main_arg2 (by decide)).trans (W2_arg2 m ρ c)
theorem W3_arg3 (c : Dev nD) : W3 m ρ c (Proc.devRef .tc main_arg3) = (m ((c : Thread nD τ).loc main_arg3)) :=
  (W3_of_ne m ρ c main_arg3 (by decide)).trans (W2_arg3 m ρ c)
theorem W3_arg8 (c : Dev nD) : W3 m ρ c (Proc.devRef .tc main_arg8) = (m ((c : Thread nD τ).loc main_arg8)) :=
  (W3_of_ne m ρ c main_arg8 (by decide)).trans (W2_arg8 m ρ c)

/-! ## The result -/

/-- The kernel's result as one term of the argument arrays. -/
def result (c : Dev nD) : FVec Ideal S50000x64 .f32 :=
  addf (F := Ideal) (s := S50000x64) (φ := .f32) (spmm64 (m ((c : Thread nD τ).loc main_arg1)) (m ((c : Thread nD τ).loc main_arg2)) (m ((c : Thread nD τ).loc main_arg3))
      (proj2 (act (spmm128 (m ((c : Thread nD τ).loc main_arg1)) (m ((c : Thread nD τ).loc main_arg2)) (m ((c : Thread nD τ).loc main_arg3)) (proj1 (m ((c : Thread nD τ).loc main_arg0)) (m ((c : Thread nD τ).loc main_arg5)))) (m ((c : Thread nD τ).loc main_arg4)) (shapeCast S1x128 (m ((c : Thread nD τ).loc main_arg6)) shapeCasts_S128_S1x128)) (m ((c : Thread nD τ).loc main_arg7))))
    (broadcastInDim S50000x64 ![0, 1] bcast_S1x64_S50000x64_0_1 (broadcastInDim S1x64 ![1] bcast_S64_S1x64_1 (m ((c : Thread nD τ).loc main_arg8))))

set_option maxHeartbeats 1000000 in
theorem W4_v31 (c : Dev nD) : W4 m ρ c (Proc.devRef .tc main_v31) = result m c := by
  show StableHlo.after hostOps2 (W3 m ρ c) (Proc.devRef .tc main_v31) = _
  after_results_simp
  rw [W3_v15 m ρ c, W3_arg1 m ρ c, W3_arg2 m ρ c, W3_arg3 m ρ c, W3_arg8 m ρ c]
  rfl

/-- The run, read: every weakly fair execution terminates without a fault, the result buffer at `result`, the
    arguments as launched. -/
theorem run_value : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (W4_v31 m ρ c), (h c).2⟩) (run_named m ρ)

end Cert.KernelIdeal.Hand

end
-- ==== Proof.GcnLaw.lean ====
/-
  The scalar facts that join the two programs' dropout steps on the extended reals.

  The kernel scales the kept activations by the literal 2; the reference divides them by the literal 1/2. On the
  extended reals a quotient by a nonzero real is the product with its inverse, for every numerator (the infinities
  included), so the two agree everywhere. The kernel reads its one-bit keep mask by widening it to 32 bits with
  zeros and converting the signed word; the reference converts the one-bit word unsigned: a bit is 0 or 1 either way.
-/
import Idealize.ShloMosaic.PureOps.Ideal
import Idealize.ShloMosaic.PureOps.Ideal.Laws

noncomputable section

namespace Cert.GcnLaw

open Idealize.ShloMosaic

/-- The f32 word of 0.5 denotes the real 1/2. -/
theorem ofBits_half : Ideal.ofBits .f32 0x3F000000#32 = (((1 / 2 : ℝ)) : EReal) := by
  simp [Ideal.ofBits, Ideal.ieee, -EReal.coe_mul]; norm_num

/-- The f32 word of 2.0 denotes the real 2. -/
theorem ofBits_two : Ideal.ofBits .f32 0x40000000#32 = ((2 : ℝ) : EReal) := by
  simp [Ideal.ofBits, Ideal.ieee, -EReal.coe_mul]; norm_num

/-- A bit widened with zeros to 32 bits and read signed is the bit read unsigned. -/
theorem keep_signed_eq_unsigned (b : BitVec 1) :
    (((b.setWidth 32).toInt : ℝ) : EReal) = (((b.toNat : ℕ) : ℝ) : EReal) := by
  rcases BitVec.eq_zero_or_eq_one b with h | h <;> subst h <;> simp

/-- Scaling by the literal 2 is dividing by the literal 1/2, at every extended real. -/
theorem mul_two_eq_div_half (x : EReal) :
    x * Ideal.ofBits .f32 0x40000000#32 = Ideal.div x (Ideal.ofBits .f32 0x3F000000#32) := by
  rw [ofBits_two, ofBits_half, Ideal.div_coe (by norm_num : ((1 / 2 : ℝ)) ≠ 0)]
  norm_num

end Cert.GcnLaw

end
-- ==== Proof.Bridge.lean ====
/-
  The reference's result is the kernel's.

  The reference computes spmm₆₄ (((max (spmm₁₂₈ (x · W1) + b1, 0) · keep) / (1/2)) · W2) + b2 with host operations
  only. Its two matrix products are, entry by entry, the same plain sums over the contracted axis as the kernel's
  block products; its sparse products are the very operations the kernel's program runs between its regions; and its
  dropout step equals the kernel's at every extended real: dividing by 1/2 is multiplying by 2, and a bit read
  unsigned is the bit widened with zeros and read signed. No finiteness of the inputs is used.
-/
import proofs.«120734_j58471684768394_1_alg».proof.Proof.Gen.ReferenceIdeal.Read
import proofs.«120734_j58471684768394_1_alg».proof.Proof.Region0
import proofs.«120734_j58471684768394_1_alg».proof.Proof.Region1
import proofs.«120734_j58471684768394_1_alg».proof.Proof.HostReads
import proofs.«120734_j58471684768394_1_alg».proof.Proof.GcnLaw
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen
open Cert.KernelIdeal.Hand (proj1 proj2 act xAt w1At actAt w2At)

/-! ## The reference's matrix products as plain sums -/

/-- The reference's first product, entry by entry, is the sum the kernel's blocks compute. -/
theorem ref_proj1 (x0 : FVec Ideal S50000x512 .f32) (x5 : FVec Ideal S512x128 .f32) :
    Host.dotGeneral (F := Ideal) dot_S50000x512_S512x128_S50000x128_1_0_0_1_n_n none x0 x5 = proj1 x0 x5 := by
  funext i
  show Cert.ReferenceIdeal.Read.val_main_v0 (F := Ideal) x0 x5 i = _
  rw [Cert.ReferenceIdeal.Read.val_main_v0_apply]
  unfold proj1
  refine Finset.sum_congr rfl fun k _ => ?_
  have el : Cert.ReferenceIdeal.Read.lidx_main_v0 i k = xAt i k := funext fun a => by
    match a with
    | ⟨0, _⟩ => rfl
    | ⟨1, _⟩ => rfl
  have er : Cert.ReferenceIdeal.Read.ridx_main_v0 i k = w1At i k := funext fun a => by
    match a with
    | ⟨0, _⟩ => rfl
    | ⟨1, _⟩ => rfl
  rw [el, er]

/-- The reference's second product, of any left operand, entry by entry. -/
theorem ref_proj2 (a : FVec Ideal S50000x128 .f32) (w : FVec Ideal S128x64 .f32) :
    Host.dotGeneral (F := Ideal) dot_S50000x128_S128x64_S50000x64_1_0_0_1_n_n none a w = proj2 a w := by
  funext i
  simp only [Host.dotGeneral]
  rw [Ideal.dotGeneral_apply, ← Equiv.sum_comp (ValueIdx.contrEquiv1 dot_S50000x128_S128x64_S50000x64_1_0_0_1_n_n 128 rfl rfl).symm]
  unfold proj2
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = actAt i k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : dot_S50000x128_S128x64_S50000x64_1_0_0_1_n_n.rhsIdx i ((ValueIdx.contrEquiv1 dot_S50000x128_S128x64_S50000x64_1_0_0_1_n_n 128 rfl rfl).symm k) = w2At i k := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-! ## The dropout step -/

/-- The bias broadcast over the rows reads the bias at the position's column. -/
theorem bias_apply (b1 : FVec Ideal S128 .f32) (p : Fin 50000) (r : Fin 128) :
    broadcastInDim S50000x128 ![0, 1] bcast_S1x128_S50000x128_0_1 (broadcastInDim S1x128 ![1] bcast_S128_S1x128_1 b1) (ix2 p r) = b1 (ix1 r) := by
  refine (broadcastInDim_apply _ _ _ (ix2 p r) (ix2 (0 : Fin 1) r) fun a => ?_).trans ?_
  · match a with
    | ⟨0, _⟩ => rfl
    | ⟨1, _⟩ => rfl
  · refine broadcastInDim_apply _ _ _ (ix2 (0 : Fin 1) r) (ix1 r) fun a => ?_
    match a with
    | ⟨0, _⟩ => rfl

/-- The reference's activation (bias added along the rows, maximum with 0, the keep mask converted unsigned, the
    quotient by 1/2) is the kernel's (the bias as one row, the mask widened and converted signed, the product with 2). -/
theorem ref_act (hp u : FVec Ideal S50000x128 .f32) (b1 : FVec Ideal S128 .f32) :
    Host.divf (F := Ideal) (mulf (maximumf (addf hp (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32)))
        (uitofp .f32 (cmpf .oge u (broadcastInDim S50000x128 ![] bcast_S_S50000x128 (constant (F := Ideal) S_ .f32 0x3F000000#32)))))
      (broadcastInDim S50000x128 ![] bcast_S_S50000x128 (constant (F := Ideal) S_ .f32 0x3F000000#32))
    = act hp u (shapeCast Cert.KernelIdeal.S1x128 b1 Cert.KernelIdeal.Gen.shapeCasts_S128_S1x128) := by
  funext i
  obtain ⟨p, r, rfl⟩ : ∃ (p : Fin 50000) (r : Fin 128), i = ix2 p r := ⟨i 0, i 1, eq_ix2 i⟩
  show Ideal.div (max (hp (ix2 p r) + broadcastInDim S50000x128 ![0, 1] bcast_S1x128_S50000x128_0_1 (broadcastInDim S1x128 ![1] bcast_S128_S1x128_1 b1) (ix2 p r)) (Ideal.ofBits .f32 0x00000000#32)
        * ((((Ideal.cmp .oge (u (ix2 p r)) (Ideal.ofBits .f32 0x3F000000#32)).toNat : ℕ) : ℝ) : EReal)) (Ideal.ofBits .f32 0x3F000000#32)
     = (max (hp (ix2 p r) + shapeCast Cert.KernelIdeal.S1x128 b1 Cert.KernelIdeal.Gen.shapeCasts_S128_S1x128 (ix2 (0 : Fin 1) r)) (Ideal.ofBits .f32 0x00000000#32)
        * ((((Ideal.cmp .oge (u (ix2 p r)) (Ideal.ofBits .f32 0x3F000000#32)).setWidth 32).toInt : ℝ) : EReal)) * Ideal.ofBits .f32 0x40000000#32
  rw [bias_apply, shapeCast_a_1a_apply, Cert.GcnLaw.keep_signed_eq_unsigned, Cert.GcnLaw.mul_two_eq_div_half]

/-! ## The two results -/

/-- The reference run's result term, of the kernel's argument arrays, is the kernel's result. -/
theorem ref_result_eq (m : (ℓ : Loc Cert.KernelIdeal.nD Cert.KernelIdeal.τ Cert.KernelIdeal.sig) → Buf (Elt Ideal) ℓ) (c : Dev Cert.KernelIdeal.nD)
    (x0 : FVec Ideal S50000x512 .f32) (x1 x2 : IVec S800000 32) (x3 : FVec Ideal S800000 .f32) (x4 : FVec Ideal S50000x128 .f32)
    (x5 : FVec Ideal S512x128 .f32) (x6 : FVec Ideal S128 .f32) (x7 : FVec Ideal S128x64 .f32) (x8 : FVec Ideal S64 .f32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8)) :
    addf (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 x1)
        (mulf (broadcastInDim S800000x64 ![0, 1] bcast_S800000x1_S800000x64_0_1 (broadcastInDim S800000x1 ![0] bcast_S800000_S800000x1_0 x3))
          (Host.gather gather_S50000x64_S800000x1_S800000x64_1_0_n_n_0_1_164
            (Host.dotGeneral (F := Ideal) dot_S50000x128_S128x64_S50000x64_1_0_0_1_n_n none
              (Host.divf (F := Ideal) (mulf (maximumf (addf
                  (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 x1)
                    (mulf (broadcastInDim S800000x128 ![0, 1] bcast_S800000x1_S800000x128_0_1 (broadcastInDim S800000x1 ![0] bcast_S800000_S800000x1_0 x3))
                      (Host.gather gather_S50000x128_S800000x1_S800000x128_1_0_n_n_0_1_1128 (Host.dotGeneral (F := Ideal) dot_S50000x512_S512x128_S50000x128_1_0_0_1_n_n none x0 x5)
                        (broadcastInDim S800000x1 ![0] bcast_S800000_S800000x1_0 (select (cmpi .slt x2 (broadcastInDim S800000 ![] bcast_S_S800000 (constantI S_ 32 0#32))) (addi x2 (broadcastInDim S800000 ![] bcast_S_S800000 (constantI S_ 32 50000#32))) x2)))))
                  (broadcastInDim S50000x128 ![0, 1] bcast_S1x128_S50000x128_0_1 (broadcastInDim S1x128 ![1] bcast_S128_S1x128_1 x6)))
                  (broadcastInDim S50000x128 ![] bcast_S_S50000x128 (constant (F := Ideal) S_ .f32 0x00000000#32)))
                (uitofp .f32 (cmpf .oge x4 (broadcastInDim S50000x128 ![] bcast_S_S50000x128 (constant (F := Ideal) S_ .f32 0x3F000000#32)))))
                (broadcastInDim S50000x128 ![] bcast_S_S50000x128 (constant (F := Ideal) S_ .f32 0x3F000000#32)))
              x7)
            (broadcastInDim S800000x1 ![0] bcast_S800000_S800000x1_0 (select (cmpi .slt x2 (broadcastInDim S800000 ![] bcast_S_S800000 (constantI S_ 32 0#32))) (addi x2 (broadcastInDim S800000 ![] bcast_S_S800000 (constantI S_ 32 50000#32))) x2)))))
      (broadcastInDim S50000x64 ![0, 1] bcast_S1x64_S50000x64_0_1 (broadcastInDim S1x64 ![1] bcast_S64_S1x64_1 x8))
    = Cert.KernelIdeal.Hand.result m c := by
  rw [ref_proj1, ref_act, ref_proj2]
  subst h0 h1 h2 h3 h4 h5 h6 h7 h8
  rfl

end Cert.Bridge

end
-- ==== Proof.lean ====
/-
  Two layers of graph message passing: out = A · (drop (relu (A · (x · W1) + b1)) · W2) + b2, where A is the sparse
  adjacency given by its edges (destination, source, value) and drop keeps the entries whose noise is at least 1/2
  and doubles them.

  The kernel computes the two dense products x · W1 and h · W2 in two pipelined regions of 25 row blocks each, the
  second fused with the bias, the maximum with 0 and the dropout; the sparse products and the last bias are host
  operations between and after the regions. The reference computes everything with host operations.

  On the extended reals the two are the same function of the arguments. Each region's output array is the plain
  matrix product of the arrays it was entered with (the change of float format into the product is the identity; a
  block's rows depend on the same rows of the operand; the blocks tile the rows). The sparse products are the same
  operations in both programs and are never opened. The dropout step differs in spelling only: the kernel multiplies
  by 2 where the reference divides by 1/2 — equal at every extended real, the infinities included — and reads its
  keep bit widened and signed where the reference reads it unsigned. So the claim needs no finiteness of the inputs;
  the precondition is never opened. No operation was rewritten in idealizing the kernel, so the idealized kernel is the
  kernel's own text read on the extended reals.
-/
import proofs.«120734_j58471684768394_1_alg».proof.Defs
import proofs.«120734_j58471684768394_1_alg».proof.Proof.Gen.Kernel
import proofs.«120734_j58471684768394_1_alg».proof.Proof.Gen.Kernel.Skeleton
import proofs.«120734_j58471684768394_1_alg».proof.Proof.Gen.Kernel.Launch
import proofs.«120734_j58471684768394_1_alg».proof.Proof.Gen.Kernel.Points
import proofs.«120734_j58471684768394_1_alg».proof.Proof.Gen.Kernel.Frame
import proofs.«120734_j58471684768394_1_alg».proof.Proof.Gen.KernelIdeal
import proofs.«120734_j58471684768394_1_alg».proof.Proof.Gen.KernelIdeal.Skeleton
import proofs.«120734_j58471684768394_1_alg».proof.Proof.Gen.KernelIdeal.Launch
import proofs.«120734_j58471684768394_1_alg».proof.Proof.Gen.KernelIdeal.Points
import proofs.«120734_j58471684768394_1_alg».proof.Proof.Gen.KernelIdeal.Frame
import proofs.«120734_j58471684768394_1_alg».proof.Proof.Gen.ReferenceIdeal
import proofs.«120734_j58471684768394_1_alg».proof.Proof.Gen.ReferenceIdeal.Run
import proofs.«120734_j58471684768394_1_alg».proof.Proof.Gen.ReferenceIdeal.Read
import proofs.«120734_j58471684768394_1_alg».proof.Proof.Gen.Pre_finite_inputs
import proofs.«120734_j58471684768394_1_alg».proof.Proof.KernelRun
import proofs.«120734_j58471684768394_1_alg».proof.Proof.HostReads
import proofs.«120734_j58471684768394_1_alg».proof.Proof.Bridge
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten in idealizing the kernel: nothing to preserve. -/
theorem preserves : Cert.preserves_Kernel_KernelIdeal := trivial

/-- From memories that agree on the arguments both programs run to the end, the kernel's result buffer at
    spmm₆₄ (act (spmm₁₂₈ (x · W1)) · W2) + b2 and the reference's at its own composed term of the same arguments,
    which is the same array. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  exact Cert.Bridge.ref_result_eq m c _ _ _ _ _ _ _ _ _ a0 a1 a2 a3 a4 a5 a6 a7 a8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
